-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 134
  | .vmem => 23
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .bf16⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .bf16⟩
  | 63 => ⟨S850000x64, .f32⟩
  | 64 => ⟨S850000x1, .f32⟩
  | 65 => ⟨S850000x64, .f32⟩
  | 66 => ⟨S850000x64, .f32⟩
  | 67 => ⟨S_, .f32⟩
  | 68 => ⟨S50000x64, .f32⟩
  | 69 => ⟨S850000x1, .i32⟩
  | 70 => ⟨S50000x64, .f32⟩
  | 71 => ⟨S1x64, .f32⟩
  | 72 => ⟨S50000x64, .bf16⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x64, .bf16⟩
  | 82 => ⟨S850000x64, .f32⟩
  | 83 => ⟨S850000x1, .f32⟩
  | 84 => ⟨S850000x64, .f32⟩
  | 85 => ⟨S850000x64, .f32⟩
  | 86 => ⟨S_, .f32⟩
  | 87 => ⟨S50000x64, .f32⟩
  | 88 => ⟨S850000x1, .i32⟩
  | 89 => ⟨S50000x64, .f32⟩
  | 90 => ⟨S1x64, .f32⟩
  | 91 => ⟨S50000x64, .bf16⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x64, .bf16⟩
  | 101 => ⟨S850000x64, .f32⟩
  | 102 => ⟨S850000x1, .f32⟩
  | 103 => ⟨S850000x64, .f32⟩
  | 104 => ⟨S850000x64, .f32⟩
  | 105 => ⟨S_, .f32⟩
  | 106 => ⟨S50000x64, .f32⟩
  | 107 => ⟨S850000x1, .i32⟩
  | 108 => ⟨S50000x64, .f32⟩
  | 109 => ⟨S1x64, .f32⟩
  | 110 => ⟨S50000x64, .f32⟩
  | 111 => ⟨S50000x64, .f32⟩
  | 112 => ⟨S_, .f32⟩
  | 113 => ⟨S50000x64, .f32⟩
  | 114 => ⟨S50000x64, .f32⟩
  | 115 => ⟨S_, .f32⟩
  | 116 => ⟨S512x64, .f32⟩
  | 117 => ⟨S50000x1, .i32⟩
  | 118 => ⟨S512x64, .f32⟩
  | 119 => ⟨S_, .f32⟩
  | 120 => ⟨S50000, .f32⟩
  | 121 => ⟨S_, .f32⟩
  | 122 => ⟨S512, .f32⟩
  | 123 => ⟨S50000x1, .i32⟩
  | 124 => ⟨S512, .f32⟩
  | 125 => ⟨S_, .f32⟩
  | 126 => ⟨S512, .f32⟩
  | 127 => ⟨S512, .f32⟩
  | _ => ⟨S50000x64, .f32⟩

abbrev hbmTy0_1 (i : Nat) : BufTy := match i % 128 with
  | 0 => ⟨S512x1, .f32⟩
  | 1 => ⟨S512x64, .f32⟩
  | 2 => ⟨S512x64, .f32⟩
  | 3 => ⟨S1x64, .f32⟩
  | 4 => ⟨S1x1, .f32⟩
  | 5 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S512x64, .f32⟩
  | .local _ .vmem, ⟨18, _⟩ => ⟨S64x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_c_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_cst : Ref sig .tc := ⟨.hbm, 112, rfl⟩
abbrev main_call1_v0 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_16 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S10000x64_S10000x64_0_0 : (Rect.unit (s := S10000x64) ![0, 0] S10000x64.size inb_S10000x64_S10000x64_0_0).PackedRows (EltTy.packing .bf16)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .bf16 = 32 ∨ (Rect.block (s := S50000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .bf16 = 32 ∨ (Rect.block (s := S50000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S50000x64.size a
  hwx2_3 : ∀ i : grid2.Coords, EltTy.bits .bf16 = 32 ∨ (Rect.block (s := S50000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x1.size a ≤ S64x1.size a
  hwx3_3 : ∀ i : grid3.Coords, EltTy.bits .f32 = 32 ∨ (Rect.block (s := S64x1) S64x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩
abbrev S1x1 : Shape := ⟨2, ![1, 1]⟩

abbrev nBuf : Space → Nat
  | .hbm => 221
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x800000, .i32⟩
  | 14 => ⟨S800000, .i32⟩
  | 15 => ⟨S1x800000, .i32⟩
  | 16 => ⟨S800000, .i32⟩
  | 17 => ⟨S50000x64, .f32⟩
  | 18 => ⟨S50000, .i32⟩
  | 19 => ⟨S850000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .f32⟩
  | 122 => ⟨S850000x1, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S50000x64, .f32⟩
  | 6 => ⟨S50000x64, .f32⟩
  | 7 => ⟨S50000x64, .f32⟩
  | 8 => ⟨S50000, .i32⟩
  | 9 => ⟨S850000, .i32⟩
  | 10 => ⟨S850000, .i32⟩
  | 11 => ⟨S_, .f32⟩
  | 12 => ⟨S850000, .f32⟩
  | 13 => ⟨S_, .f32⟩
  | 14 => ⟨S50000, .f32⟩
  | 15 => ⟨S850000x1, .i32⟩
  | 16 => ⟨S50000, .f32⟩
  | 17 => ⟨S_, .f32⟩
  | 18 => ⟨S50000, .f32⟩
  | 19 => ⟨S50000, .i1⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x64, .f32⟩
  | 53 => ⟨S850000x1, .f32⟩
  | 54 => ⟨S850000x64, .f32⟩
  | 55 => ⟨S850000x64, .f32⟩
  | 56 => ⟨S_, .f32⟩
  | 57 => ⟨S50000x64, .f32⟩
  | 58 => ⟨S850000x1, .i32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .f32⟩
  | 67 => ⟨S512x64, .f32⟩
  | 68 => ⟨S50000x1, .i32⟩
  | 69 => ⟨S512x64, .f32⟩
  | 70 => ⟨S_, .f32⟩
  | 71 => ⟨S50000, .f32⟩
  | 72 => ⟨S_, .f32⟩
  | 73 => ⟨S512, .f32⟩
  | 74 => ⟨S50000x1, .i32⟩
  | 75 => ⟨S512, .f32⟩
  | 76 => ⟨S_, .f32⟩
  | 77 => ⟨S512, .f32⟩
  | 78 => ⟨S512, .f32⟩
  | 79 => ⟨S512x1, .f32⟩
  | 80 => ⟨S512x64, .f32⟩
  | 81 => ⟨S512x64, .f32⟩
  | 82 => ⟨S512x64, .f32⟩
  | 83 => ⟨S1x64, .f32⟩
  | 84 => ⟨S512x64, .f32⟩
  | 85 => ⟨S512x64, .f32⟩
  | 86 => ⟨S_, .f32⟩
  | 87 => ⟨S512x64, .f32⟩
  | 88 => ⟨S512x64, .f32⟩
  | 89 => ⟨S512x1, .f32⟩
  | 90 => ⟨S1x1, .f32⟩
  | 91 => ⟨S512x1, .f32⟩
  | 92 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call1_cst : Ref sig .tc := ⟨.hbm, 73, rfl⟩
abbrev main_call1_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v59 : Ref sig .tc := ⟨.hbm, 93, rfl⟩
abbrev main_c_13 : Ref sig .tc := ⟨.hbm, 94, rfl⟩
abbrev main_v60 : Ref sig .tc := ⟨.hbm, 95, rfl⟩
abbrev main_v61 : Ref sig .tc := ⟨.hbm, 96, rfl⟩
abbrev main_c_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_c_16 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_17 : Ref sig .tc := ⟨.hbm, 113, rfl⟩
abbrev main_v75 : Ref sig .tc := ⟨.hbm, 114, rfl⟩
abbrev main_v76 : Ref sig .tc := ⟨.hbm, 115, rfl⟩
abbrev main_c_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_call3_cst : Ref sig .tc := ⟨.hbm, 132, rfl⟩
abbrev main_call3_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_20 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_call4_v0 : Ref sig .tc := ⟨.hbm, 150, rfl⟩
abbrev main_call4_v1 : Ref sig .tc := ⟨.hbm, 151, rfl⟩
abbrev main_v103 : Ref sig .tc := ⟨.hbm, 152, rfl⟩
abbrev main_c_24 : Ref sig .tc := ⟨.hbm, 153, rfl⟩
abbrev main_v104 : Ref sig .tc := ⟨.hbm, 154, rfl⟩
abbrev main_v105 : Ref sig .tc := ⟨.hbm, 155, rfl⟩
abbrev main_c_25 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_c_26 : Ref sig .tc := ⟨.hbm, 162, rfl⟩
abbrev main_v111 : Ref sig .tc := ⟨.hbm, 163, rfl⟩
abbrev main_v112 : Ref sig .tc := ⟨.hbm, 164, rfl⟩
abbrev main_c_27 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_c_28 : Ref sig .tc := ⟨.hbm, 172, rfl⟩
abbrev main_v119 : Ref sig .tc := ⟨.hbm, 173, rfl⟩
abbrev main_v120 : Ref sig .tc := ⟨.hbm, 174, rfl⟩
abbrev main_c_29 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_call5_cst : Ref sig .tc := ⟨.hbm, 191, rfl⟩
abbrev main_call5_v0 : Ref sig .tc := ⟨.hbm, 192, rfl⟩
abbrev main_v135 : Ref sig .tc := ⟨.hbm, 193, rfl⟩
abbrev main_cst_31 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_32 : Ref sig .tc := ⟨.hbm, 198, rfl⟩
abbrev main_v139 : Ref sig .tc := ⟨.hbm, 199, rfl⟩
abbrev main_cst_33 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_cst_34 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call6_cst : Ref sig .tc := ⟨.hbm, 214, rfl⟩
abbrev main_call6_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  dot_S512x64_S64x1_S512x1_1_0_0_1_n_n_wf : DotDims.WF S512x64 S64x1 S512x1 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KRun.lean ====
/-
  The idealized kernel program runs to completion from any launch memory, and when it has, every buffer of a core that
  outlives the program's regions holds the contents that the fold `W12` gives it: the launch contents pushed through
  the host operations stretch by stretch, with each region's arrays replaced by what the region's grid points wrote back.
  In particular the result buffer holds `W12` at the result, and every argument is unchanged.
-/
import proofs.«125427_j42159398977692_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that outlives the regions ends at `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The run with the result buffer named and the arguments unchanged. -/
theorem run_result : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)
    (run_all m ρ)

end Cert.KernelIdeal.KRun

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«125427_j42159398977692_2_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.LibReluDot.lean ====
/-
  GENERAL LEMMAS: a rectified, biased matrix times a weight matrix, on extended reals. Nothing here mentions a program;
  the extents R (rows), K (the contracted axis) and N (columns) are arbitrary.

  For a matrix a of R rows and K columns, a bias vector b of length K laid along the rows, and a weight matrix W of K rows
  and N columns, entry (p, q) of relu(a + b) · W is the sum over k of max(a(p, k) + b(k), 0) * W(k, q).

  * dotAt, dot, dotAt_congr, matmul_dot_at, hostdot_dot — the plain product a · W in the same style: entry (p, q) is the
    sum over k of a(p, k) * W(k, q); its row p depends only on row p of a; the matrix unit's and the host's spellings.
  * reluDotAt_congr — ROW-LOCALITY: row p of the result depends only on row p of a, so the product computed on a block of
    consecutive rows is that block of rows of the product computed on the whole matrix.
  * matmul_relu_at — the matrix unit's product into a zero accumulator, whose left operand reads max(a + b, 0) entrywise,
    at (p, q).
  * hostdot_relu — the host's dot_general of such a left operand, as a whole matrix.
  * reluAffineAt, matmul_reluAffine_at, hostdot_reluAffine: the same for a left operand that is itself a rectified affine
    layer, max(h · W1 + b1, 0), followed by a product with W2 and a bias that is one number per column.
  Only re-indexing of finite sums is used, so nothing here needs finite entries.
  It imports LibMatmulRows.lean and LibPlainDot.lean of the same directory.
-/
import Idealize.ShloMosaic.PureOps.Ideal
import Idealize.ShloMosaic.PureOps.Ideal.Laws
import Idealize.ShloMosaic.Lib.ValueIdx
import proofs.«125427_j42159398977692_2_alg».proof.Proof.LibMatmulRows
import proofs.«125427_j42159398977692_2_alg».proof.Proof.LibPlainDot

noncomputable section

namespace Cert.LibReluDot

open Idealize.ShloMosaic Idealize.ShloMosaic.ValueIdx
open scoped BigOperators

variable {R K N : ℕ}

/-- The single-precision zero as an extended real. -/
abbrev z32 : EReal := Ideal.ofBits .f32 0x00000000#32

/-- Entry (p, q) of the product a · W. -/
def dotAt (a : (⟨2, ![R, K]⟩ : Shape).Idx → EReal) (W : (⟨2, ![K, N]⟩ : Shape).Idx → EReal) (p : Fin R) (q : Fin N) : EReal :=
  ∑ k : Fin K, a (ix2 p k) * W (ix2 k q)

/-- The product a · W as a matrix of R rows and N columns. -/
def dot (a : (⟨2, ![R, K]⟩ : Shape).Idx → EReal) (W : (⟨2, ![K, N]⟩ : Shape).Idx → EReal) :
    (⟨2, ![R, N]⟩ : Shape).Idx → EReal :=
  fun i => dotAt a W (i 0) (i 1)

/-- Row p of a · W is row p' of a' · W' when the rows agree and the weights agree, entry by entry. -/
theorem dotAt_congr {R' : ℕ} (a : (⟨2, ![R, K]⟩ : Shape).Idx → EReal) (a' : (⟨2, ![R', K]⟩ : Shape).Idx → EReal)
    (W W' : (⟨2, ![K, N]⟩ : Shape).Idx → EReal) (p : Fin R) (p' : Fin R')
    (ha : ∀ k : Fin K, a (ix2 p k) = a' (ix2 p' k)) (hW : ∀ (k : Fin K) (q : Fin N), W (ix2 k q) = W' (ix2 k q)) (q : Fin N) :
    dotAt a W p q = dotAt a' W' p' q := by
  unfold dotAt
  exact Finset.sum_congr rfl fun k _ => by rw [ha k, hW k q]

/-- The matrix unit's product into a zero accumulator at (p, q). -/
theorem matmul_dot_at {φ₁ φ₂ : FTy} (l : FVec Ideal ⟨2, ![R, K]⟩ φ₁) (W : FVec Ideal ⟨2, ![K, N]⟩ φ₂) (p : Fin R) (q : Fin N) :
    matmul (DotDims.plain R K N) none l W (constant (F := Ideal) ⟨2, ![R, N]⟩ .f32 0x00000000#32) (ix2 p q) = dotAt l W p q :=
  Cert.LibPlainDot.matmul_plain l W p q

/-- The host's dot_general is the product. -/
theorem hostdot_dot (l : FVec Ideal ⟨2, ![R, K]⟩ .f32) (W : FVec Ideal ⟨2, ![K, N]⟩ .f32) :
    Host.dotGeneral (DotDims.plain R K N) none l W = dot l W := by
  funext j
  obtain ⟨p, q, rfl⟩ : ∃ (p : Fin R) (q : Fin N), j = ix2 p q := ⟨j 0, j 1, eq_ix2 j⟩
  exact Cert.LibPlainDot.hostdot_plain l W p q

/-- Entry (p, q) of relu(a + b) · W. -/
def reluDotAt (a : (⟨2, ![R, K]⟩ : Shape).Idx → EReal) (b : (⟨1, ![K]⟩ : Shape).Idx → EReal)
    (W : (⟨2, ![K, N]⟩ : Shape).Idx → EReal) (p : Fin R) (q : Fin N) : EReal :=
  ∑ k : Fin K, max (a (ix2 p k) + b (ix1 k)) z32 * W (ix2 k q)

/-- relu(a + b) · W as a matrix of R rows and N columns. -/
def reluDot (a : (⟨2, ![R, K]⟩ : Shape).Idx → EReal) (b : (⟨1, ![K]⟩ : Shape).Idx → EReal)
    (W : (⟨2, ![K, N]⟩ : Shape).Idx → EReal) : (⟨2, ![R, N]⟩ : Shape).Idx → EReal :=
  fun i => reluDotAt a b W (i 0) (i 1)

theorem reluDot_ix2 (a : (⟨2, ![R, K]⟩ : Shape).Idx → EReal) (b : (⟨1, ![K]⟩ : Shape).Idx → EReal)
    (W : (⟨2, ![K, N]⟩ : Shape).Idx → EReal) (p : Fin R) (q : Fin N) : reluDot a b W (ix2 p q) = reluDotAt a b W p q := rfl

/-- Row p of relu(a + b) · W is row p' of relu(a' + b') · W' when the rows and the other operands agree entry by entry. -/
theorem reluDotAt_congr {R' : ℕ} (a : (⟨2, ![R, K]⟩ : Shape).Idx → EReal) (a' : (⟨2, ![R', K]⟩ : Shape).Idx → EReal)
    (b b' : (⟨1, ![K]⟩ : Shape).Idx → EReal) (W W' : (⟨2, ![K, N]⟩ : Shape).Idx → EReal) (p : Fin R) (p' : Fin R')
    (ha : ∀ k : Fin K, a (ix2 p k) = a' (ix2 p' k)) (hb : ∀ k : Fin K, b (ix1 k) = b' (ix1 k))
    (hW : ∀ (k : Fin K) (q : Fin N), W (ix2 k q) = W' (ix2 k q)) (q : Fin N) :
    reluDotAt a b W p q = reluDotAt a' b' W' p' q := by
  unfold reluDotAt
  exact Finset.sum_congr rfl fun k _ => by rw [ha k, hb k, hW k q]

/-- The matrix unit's product into a zero accumulator at (p, q), when its left operand reads max(a + b, 0) entrywise. -/
theorem matmul_relu_at {φ₁ φ₂ : FTy} (l : FVec Ideal ⟨2, ![R, K]⟩ φ₁) (W : FVec Ideal ⟨2, ![K, N]⟩ φ₂)
    (a : (⟨2, ![R, K]⟩ : Shape).Idx → EReal) (b : (⟨1, ![K]⟩ : Shape).Idx → EReal)
    (hl : ∀ (p : Fin R) (k : Fin K), l (ix2 p k) = max (a (ix2 p k) + b (ix1 k)) z32) (p : Fin R) (q : Fin N) :
    matmul (DotDims.plain R K N) none l W (constant (F := Ideal) ⟨2, ![R, N]⟩ .f32 0x00000000#32) (ix2 p q)
      = reluDotAt a b W p q := by
  rw [Cert.LibPlainDot.matmul_plain l W p q]
  unfold reluDotAt
  exact Finset.sum_congr rfl fun k _ => by rw [hl p k]

/-- The host's dot_general of a left operand that reads max(a + b, 0) entrywise is relu(a + b) · W. -/
theorem hostdot_relu (l : FVec Ideal ⟨2, ![R, K]⟩ .f32) (W : FVec Ideal ⟨2, ![K, N]⟩ .f32)
    (a : (⟨2, ![R, K]⟩ : Shape).Idx → EReal) (b : (⟨1, ![K]⟩ : Shape).Idx → EReal)
    (hl : ∀ (p : Fin R) (k : Fin K), l (ix2 p k) = max (a (ix2 p k) + b (ix1 k)) z32) :
    Host.dotGeneral (DotDims.plain R K N) none l W = reluDot a b W := by
  funext j
  obtain ⟨p, q, rfl⟩ : ∃ (p : Fin R) (q : Fin N), j = ix2 p q := ⟨j 0, j 1, eq_ix2 j⟩
  rw [Cert.LibPlainDot.hostdot_plain l W p q]
  show _ = reluDotAt a b W p q
  unfold reluDotAt
  exact Finset.sum_congr rfl fun k _ => by rw [hl p k]

/-! ## A rectified affine layer followed by a product and a per-column bias -/

variable {M : ℕ}

/-- Entry (p, q) of relu(h · W1 + b1) · W2 + b2. -/
def reluAffineAt (h : (⟨2, ![R, K]⟩ : Shape).Idx → EReal) (W1 : (⟨2, ![K, N]⟩ : Shape).Idx → EReal)
    (b1 : (⟨1, ![N]⟩ : Shape).Idx → EReal) (W2 : (⟨2, ![N, M]⟩ : Shape).Idx → EReal)
    (b2 : (⟨1, ![M]⟩ : Shape).Idx → EReal) (p : Fin R) (q : Fin M) : EReal :=
  (∑ k : Fin N, max ((∑ j : Fin K, h (ix2 p j) * W1 (ix2 j k)) + b1 (ix1 k)) z32 * W2 (ix2 k q)) + b2 (ix1 q)

/-- The matrix unit's spelling: a product into zero whose left operand reads the rectified first layer entrywise, plus a
    bias matrix that reads b2 at the column. -/
theorem matmul_reluAffine_at {φ₁ φ₂ : FTy} (l : FVec Ideal ⟨2, ![R, N]⟩ φ₁) (W2 : FVec Ideal ⟨2, ![N, M]⟩ φ₂)
    (bb : (⟨2, ![R, M]⟩ : Shape).Idx → EReal)
    (h : (⟨2, ![R, K]⟩ : Shape).Idx → EReal) (W1 : (⟨2, ![K, N]⟩ : Shape).Idx → EReal)
    (b1 : (⟨1, ![N]⟩ : Shape).Idx → EReal) (b2 : (⟨1, ![M]⟩ : Shape).Idx → EReal)
    (hl : ∀ (p : Fin R) (k : Fin N), l (ix2 p k) = max ((∑ j : Fin K, h (ix2 p j) * W1 (ix2 j k)) + b1 (ix1 k)) z32)
    (hbb : ∀ (p : Fin R) (q : Fin M), bb (ix2 p q) = b2 (ix1 q)) (p : Fin R) (q : Fin M) :
    matmul (DotDims.plain R N M) none l W2 (constant (F := Ideal) ⟨2, ![R, M]⟩ .f32 0x00000000#32) (ix2 p q) + bb (ix2 p q)
      = reluAffineAt h W1 b1 W2 b2 p q := by
  rw [Cert.LibPlainDot.matmul_plain l W2 p q, hbb p q]
  unfold reluAffineAt
  exact congrArg (· + b2 (ix1 q)) (Finset.sum_congr rfl fun k _ => by rw [hl p k])

/-- The host's spelling of the same entry. -/
theorem hostdot_reluAffine_at (l : FVec Ideal ⟨2, ![R, N]⟩ .f32) (W2 : FVec Ideal ⟨2, ![N, M]⟩ .f32)
    (bb : (⟨2, ![R, M]⟩ : Shape).Idx → EReal)
    (h : (⟨2, ![R, K]⟩ : Shape).Idx → EReal) (W1 : (⟨2, ![K, N]⟩ : Shape).Idx → EReal)
    (b1 : (⟨1, ![N]⟩ : Shape).Idx → EReal) (b2 : (⟨1, ![M]⟩ : Shape).Idx → EReal)
    (hl : ∀ (p : Fin R) (k : Fin N), l (ix2 p k) = max ((∑ j : Fin K, h (ix2 p j) * W1 (ix2 j k)) + b1 (ix1 k)) z32)
    (hbb : ∀ (p : Fin R) (q : Fin M), bb (ix2 p q) = b2 (ix1 q)) (p : Fin R) (q : Fin M) :
    Host.dotGeneral (DotDims.plain R N M) none l W2 (ix2 p q) + bb (ix2 p q) = reluAffineAt h W1 b1 W2 b2 p q := by
  rw [Cert.LibPlainDot.hostdot_plain l W2 p q, hbb p q]
  unfold reluAffineAt
  exact congrArg (· + b2 (ix1 q)) (Finset.sum_congr rfl fun k _ => by rw [hl p k])

end Cert.LibReluDot

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.RefStages.lean ====
/-
  The reference program, stage by stage, as the functions the kernel program is compared with. With h a matrix of node rows:
  * the first projection is the product x · W0;
  * agg h: the normalised neighbourhood sum of the rows of h — each edge (and each node's self loop) carries the row of its
    source node scaled by the product of the two end points' inverse square-root degrees into the row of its target node;
  * a layer boundary relu(agg h + b) · W;
  * pool g: the mean over each graph's nodes of relu(g + b2), the divisor the graph's node count clamped below by one;
  * the head relu(pooled · W1 + b1) · W2 + b2.
  The reference recomputes the edge lists and the normalisation at every layer from the same edge array; the recomputed
  terms are the same functions of that array, so the three aggregations are one function `agg` of the rows and the edges.
-/
import proofs.«125427_j42159398977692_2_alg».proof.Proof.RefRead
import proofs.«125427_j42159398977692_2_alg».proof.Proof.LibReluDot
import proofs.«125427_j42159398977692_2_alg».proof.Proof.LibBiasRows

set_option maxRecDepth 16384

noncomputable section

namespace Cert.ReferenceIdeal.Stages

open Cert.ReferenceIdeal Cert.ReferenceIdeal.Gen Cert.ReferenceIdeal.Read Cert.LibReluDot
open Idealize.ShloMosaic Idealize.ShloMosaic.ValueIdx
open scoped BigOperators

/-! ## The graph operations shared by the three layers -/

/-- The normalised neighbourhood sum of the rows of h over the edges x1 (self loops added). -/
def agg (h : FVec Ideal S50000x64 .f32) (x1 : (⟨S2x800000, .i32⟩ : BufTy).Contents (Elt Ideal)) : FVec Ideal S50000x64 .f32 :=
  Host.scatterAdd (F := Ideal) scatter_S50000x64_S850000x1_S850000x64_1_0_0_1 (val_main_v41 (F := Ideal)) (val_main_v42 (F := Ideal) x1)
    (mulf (F := Ideal) (Host.gather gather_S50000x64_S850000x1_S850000x64_1_0_n_n_0_1_164 h (val_main_v36 (F := Ideal) x1))
      (val_main_v39 (F := Ideal) x1))

/-- The mean over each graph of relu(g + b), the graph of each node given by x2. -/
def pool (g : FVec Ideal S50000x64 .f32) (x8 : (⟨S64, .f32⟩ : BufTy).Contents (Elt Ideal))
    (x2 : (⟨S50000, .i32⟩ : BufTy).Contents (Elt Ideal)) : FVec Ideal S512x64 .f32 :=
  Host.divf (F := Ideal) (Host.scatterAdd (F := Ideal) scatter_S512x64_S50000x1_S50000x64_1_0_0_1 (val_main_v136 (F := Ideal))
      (val_main_v137 (F := Ideal) x2)
      (maximumf (F := Ideal) (addf (F := Ideal) g (val_main_v133 (F := Ideal) x8)) (val_main_call5_v0 (F := Ideal))))
    (val_main_v146 (F := Ideal) x2)

section
variable (x0 : (⟨S50000x64, .f32⟩ : BufTy).Contents (Elt Ideal)) (x1 : (⟨S2x800000, .i32⟩ : BufTy).Contents (Elt Ideal))
  (x2 : (⟨S50000, .i32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-- The first layer's aggregation is `agg` of the first projection. -/
theorem v43_agg : val_main_v43 (F := Ideal) x0 x1 x3 = agg (val_main_v4 (F := Ideal) x0 x3) x1 := rfl

/-- The second layer's aggregation is `agg` of the second projection: its edge lists and normalisation, recomputed, are
    the first layer's. -/
theorem v87_agg : val_main_v87 (F := Ideal) x0 x1 x3 x4 x5 = agg (val_main_v48 (F := Ideal) x0 x1 x3 x4 x5) x1 := rfl

/-- The third layer's aggregation, likewise. -/
theorem v131_agg : val_main_v131 (F := Ideal) x0 x1 x3 x4 x5 x6 x7 = agg (val_main_v92 (F := Ideal) x0 x1 x3 x4 x5 x6 x7) x1 := rfl

/-- The pooled features are `pool` of the third aggregation. -/
theorem v147_pool : val_main_v147 (F := Ideal) x0 x1 x2 x3 x4 x5 x6 x7 x8
    = pool (val_main_v131 (F := Ideal) x0 x1 x3 x4 x5 x6 x7) x8 x2 := rfl

/-! ## The dense stages -/

/-- The first projection is the product x · W0. -/
theorem v4_eq : val_main_v4 (F := Ideal) x0 x3 = dot (R := 50000) (K := 64) (N := 64) x0 x3 := by
  unfold val_main_v4
  exact hostdot_dot (R := 50000) (K := 64) (N := 64) x0 x3

/-- A bias of 64 entries laid along 50000 rows reads the bias at the column. -/
theorem v45_at (p : Fin 50000) (k : Fin 64) : val_main_v45 (F := Ideal) x4 (ix2 p k) = x4 (ix1 k) := by
  unfold val_main_v45 val_main_v44
  exact Cert.LibBiasRows.bias_host (by decide) x4 bcast_S64_S1x64_1 bcast_S1x64_S50000x64_0_1 p k

theorem v89_at (p : Fin 50000) (k : Fin 64) : val_main_v89 (F := Ideal) x6 (ix2 p k) = x6 (ix1 k) := by
  unfold val_main_v89 val_main_v88
  exact Cert.LibBiasRows.bias_host (by decide) x6 bcast_S64_S1x64_1 bcast_S1x64_S50000x64_0_1 p k

theorem v150_at (p : Fin 512) (k : Fin 64) : val_main_v150 (F := Ideal) x10 (ix2 p k) = x10 (ix1 k) := by
  unfold val_main_v150 val_main_v149
  exact Cert.LibBiasRows.bias_host (by decide) x10 bcast_S64_S1x64_1 bcast_S1x64_S512x64_0_1 p k

/-- A bias of one entry laid along 512 rows of one column reads that entry. -/
theorem v155_at (p : Fin 512) (q : Fin 1) : val_main_v155 (F := Ideal) x12 (ix2 p q) = x12 (ix1 q) := by
  rw [val_main_v155_apply, val_main_v154_apply]
  refine congrArg x12 (funext fun a => Fin.ext ?_)
  match a with
  | ⟨0, _⟩ => show (0 : ℕ) = q.val; omega

/-- The rectifier's zero, laid along 50000 rows of 64, reads the single-precision zero. -/
theorem call1_v0_at (p : Fin 50000) (k : Fin 64) : val_main_call1_v0 (F := Ideal) (ix2 p k) = z32 := rfl
theorem call3_v0_at (p : Fin 50000) (k : Fin 64) : val_main_call3_v0 (F := Ideal) (ix2 p k) = z32 := rfl
theorem call6_v0_at (p : Fin 512) (k : Fin 64) : val_main_call6_v0 (F := Ideal) (ix2 p k) = z32 := rfl

/-- The second projection is relu(agg + b0) · W1. -/
theorem v48_eq : val_main_v48 (F := Ideal) x0 x1 x3 x4 x5
    = reluDot (R := 50000) (K := 64) (N := 64) (val_main_v43 (F := Ideal) x0 x1 x3) x4 x5 := by
  unfold val_main_v48 val_main_v47 val_main_v46
  generalize val_main_v43 (F := Ideal) x0 x1 x3 = g
  refine hostdot_relu (R := 50000) (K := 64) (N := 64)
    (maximumf (F := Ideal) (addf (F := Ideal) g (val_main_v45 (F := Ideal) x4)) (val_main_call1_v0 (F := Ideal))) x5 g x4 (fun p k => ?_)
  rw [maximumf_apply, addf_apply, v45_at, call1_v0_at]

/-- The third projection is relu(agg + b1) · W2. -/
theorem v92_eq : val_main_v92 (F := Ideal) x0 x1 x3 x4 x5 x6 x7
    = reluDot (R := 50000) (K := 64) (N := 64) (val_main_v87 (F := Ideal) x0 x1 x3 x4 x5) x6 x7 := by
  unfold val_main_v92 val_main_v91 val_main_v90
  generalize val_main_v87 (F := Ideal) x0 x1 x3 x4 x5 = g
  refine hostdot_relu (R := 50000) (K := 64) (N := 64)
    (maximumf (F := Ideal) (addf (F := Ideal) g (val_main_v89 (F := Ideal) x6)) (val_main_call3_v0 (F := Ideal))) x7 g x6 (fun p k => ?_)
  rw [maximumf_apply, addf_apply, v89_at, call3_v0_at]

/-- The result is the head relu(pooled · W1 + b1) · W2 + b2. -/
theorem v156_eq : val_main_v156 (F := Ideal) x0 x1 x2 x3 x4 x5 x6 x7 x8 x9 x10 x11 x12
    = fun i => reluAffineAt (R := 512) (K := 64) (N := 64) (M := 1)
        (val_main_v147 (F := Ideal) x0 x1 x2 x3 x4 x5 x6 x7 x8) x9 x10 x11 x12 (i 0) (i 1) := by
  unfold val_main_v156 val_main_v153 val_main_v152 val_main_v151 val_main_v148
  generalize val_main_v147 (F := Ideal) x0 x1 x2 x3 x4 x5 x6 x7 x8 = g
  funext j
  obtain ⟨p, q, rfl⟩ : ∃ (p : Fin 512) (q : Fin 1), j = ix2 p q := ⟨j 0, j 1, eq_ix2 j⟩
  refine hostdot_reluAffine_at (R := 512) (K := 64) (N := 64) (M := 1)
    (maximumf (F := Ideal) (addf (F := Ideal) (Host.dotGeneral (F := Ideal) dot_S512x64_S64x64_S512x64_1_0_0_1_n_n none g x9)
      (val_main_v150 (F := Ideal) x10)) (val_main_call6_v0 (F := Ideal)))
    x11 (val_main_v155 (F := Ideal) x12) g x9 x10 x12 (fun p k => ?_) (fun p q => v155_at x12 p q) p q
  exact (maximumf_apply _ _ (ix2 p k)).trans (congrArg₂ (fun u v : EReal => max u v)
    ((addf_apply _ _ (ix2 p k)).trans (congrArg₂ (fun u v : EReal => u + v)
      (Cert.LibPlainDot.hostdot_plain (R := 512) (K := 64) (N := 64) g x9 p k) (v150_at x10 p k)))
    (call6_v0_at p k))

end

end Cert.ReferenceIdeal.Stages

end
-- ==== Proof.Region0.lean ====
/-
  The first region of the kernel program multiplies the node features x (50000 rows of 64) by a 64-by-64 weight matrix,
  one block of 10000 consecutive rows per grid point, the weight block being the whole matrix at every point. Row r of a
  product depends only on row r of its left factor, so block t of the product of the whole matrices is the product of
  block t of x with the weights, and the five blocks cover the 50000 rows: when the region has run, its output array is
  the product of the two arrays it read, as they were when the region was entered.
-/
import proofs.«125427_j42159398977692_2_alg».proof.Proof.Gen.KernelIdeal.Frame
import proofs.«125427_j42159398977692_2_alg».proof.Proof.LibReluDot
import Idealize.ShloMosaic.Lib.Pipeline.Value
import Idealize.ShloMosaic.Lib.ValueIdx

set_option maxRecDepth 16384

noncomputable section

namespace Cert.KernelIdeal.Region0

open Cert.KernelIdeal Cert.KernelIdeal.Gen Cert.LibReluDot
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the loaded feature block against column q of the loaded weights. -/
theorem pay_at (x0 : FVec Ideal S10000x64 .f32) (x1 : FVec Ideal S64x64 .f32) (p : Fin 10000) (q : Fin 64) :
    k0_pay1 (F := Ideal) x0 x1 (ix2 p q) = dotAt x0 x1 p q := by
  unfold k0_pay1
  exact matmul_dot_at (truncf .bf16 x0 bitsLt_bf16_f32) (truncf .bf16 x1 bitsLt_bf16_f32) p q

/-- The block index maps over the grid: the feature and output blocks move together along the rows, the weight block
    stays at the origin, and no block moves along the columns. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point t writes back is block t of the product of the two arrays the region read. -/
theorem flushed_eq (c : Dev nD) (t : Fin cfg0.N) :
    (dat0 V c).flushed 2 t = ((cfg0.win 2).blk t).view.read (Elt Ideal)
      (dot (R := 50000) (K := 64) (N := 64) (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have ht : t.val < 5 := lt_of_lt_of_eq t.isLt N_0
  have hp : p.val < 10000 := p.isLt
  have hP : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; rw [e5]; omega
    | ⟨1, _⟩ => show win0_2.index t (1 : Fin 2) * 64 + 1 * q.val = q.val; rw [e4]; omega
  show k0_pay1 (F := Ideal) (iblk0 V c 0 t) (iblk0 V c 1 t) (ix2 p q)
    = dot (R := 50000) (K := 64) (N := 64) (V c main_arg0) (V c main_arg3) (((cfg0.win 2).blk t).view.emb (ix2 p q))
  rw [hP]
  refine (pay_at (iblk0 V c 0 t) (iblk0 V c 1 t) p q).trans ?_
  refine dotAt_congr (R := 10000) (R' := 50000) (K := 64) (N := 64) _ _ _ _ p _ (fun k => ?_) (fun k q' => ?_) q
  · show V c main_arg0 (((cfg0.win 0).blk t).view.emb (ix2 p k)) = V c main_arg0 (ix2 (⟨t.val * 10000 + p.val, by omega⟩ : Fin 50000) k)
    refine congrArg (V c main_arg0) (funext fun a => Fin.ext ?_)
    match a with
    | ⟨0, _⟩ => show win0_0.index t (0 : Fin 2) * 10000 + 1 * p.val = t.val * 10000 + p.val; rw [e0, e5]; omega
    | ⟨1, _⟩ => show win0_0.index t (1 : Fin 2) * 64 + 1 * k.val = k.val; rw [e1]; omega
  · show V c main_arg3 (((cfg0.win 1).blk t).view.emb (ix2 k q')) = V c main_arg3 (ix2 k q')
    refine congrArg (V c main_arg3) (funext fun a => Fin.ext ?_)
    match a with
    | ⟨0, _⟩ => show win0_1.index t (0 : Fin 2) * 64 + 1 * k.val = k.val; rw [e2]; omega
    | ⟨1, _⟩ => show win0_1.index t (1 : Fin 2) * 64 + 1 * q'.val = q'.val; rw [e3]; omega

/-- An index of the output array lies in grid point t's block when its row is among the block's 10000 rows. -/
theorem mem_blk (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Every row of the output array is written back by the grid point its block of 10000 rows belongs to. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : (i 0).val / 10000 < cfg0.N := lt_of_lt_of_eq (by omega : (i 0).val / 10000 < 5) N_0.symm
  refine ⟨⟨(i 0).val / 10000, hN⟩, flush0_2 _, ?_⟩
  rw [mem_blk]
  obtain ⟨e0, e1, e2, e3, e4, e5⟩ := idx_facts ⟨(i 0).val / 10000, hN⟩
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e4]; omega

/-- When the region has run, its output array is the product of the two arrays it read. -/
theorem arr_eq (c : Dev nD) :
    (dat0 V c).arrAt 2 cfg0.N = dot (R := 50000) (K := 64) (N := 64) (V c main_arg0) (V c main_arg3) :=
  (dat0 V c).arrAt_eq_of_cover 2 _ (fun t _ => flushed_eq V c t) cover

end Cert.KernelIdeal.Region0

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«125427_j42159398977692_2_alg».proof.Proof.LibMatmulRows
import proofs.«125427_j42159398977692_2_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«125427_j42159398977692_2_alg».proof.Proof.LibMatmulRows
import proofs.«125427_j42159398977692_2_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.Region1.lean ====
/-
  The second region of the kernel program adds a bias row to the aggregated node rows, rectifies, and multiplies by a 64-by-64
  weight matrix, one block of 10000 consecutive rows per grid point; the bias row (one row of 64) and the weights are read
  whole at every point. Row r of relu(a + b) · W depends only on row r of a, so block t of the result for the whole matrix is
  the result for block t, and the five blocks cover the 50000 rows: when the region has run, its output array is
  relu(a + b) · W of the three arrays it read, as they were when the region was entered, b being the one row of the bias array.
-/
import proofs.«125427_j42159398977692_2_alg».proof.Proof.Gen.KernelIdeal.Frame
import proofs.«125427_j42159398977692_2_alg».proof.Proof.LibReluDot
import proofs.«125427_j42159398977692_2_alg».proof.Proof.LibRowBias
import Idealize.ShloMosaic.Lib.Pipeline.Value
import Idealize.ShloMosaic.Lib.ValueIdx

set_option maxRecDepth 16384

noncomputable section

namespace Cert.KernelIdeal.Region1

open Cert.KernelIdeal Cert.KernelIdeal.Gen Cert.LibReluDot Cert.LibRowBias
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the rectified, biased row p of the loaded block against column q of the weights. -/
theorem pay_at (x0 : FVec Ideal S10000x64 .f32) (x1 : FVec Ideal S1x64 .f32) (x2 : FVec Ideal S64x64 .f32)
    (p : Fin 10000) (q : Fin 64) :
    k1_pay1 (F := Ideal) x0 x1 x2 (ix2 p q) = reluDotAt x0 (rowOf x1) x2 p q := by
  unfold k1_pay1
  refine matmul_relu_at (R := 10000) (K := 64) (N := 64) _ (truncf .bf16 x2 bitsLt_bf16_f32) x0 (rowOf x1) (fun p k => ?_) p q
  show max (shapeCast S10000x64 x0 shapeCasts_S10000x64_S10000x64 (ix2 p k)
      + broadcastTo S10000x64 (shapeCast S1x64 x1 shapeCasts_S1x64_S1x64) broadcasts_S1x64_S10000x64 (ix2 p k))
    (Scalar.ofBits (F := Ideal) .f32 0x00000000#32) = _
  rw [shapeCast_self, bias_block x1 shapeCasts_S1x64_S1x64 broadcasts_S1x64_S10000x64 p k]
  rfl

/-- The block index maps over the grid: the row blocks of the input and of the output move together, the bias row and
    the weights stay at the origin, and no block moves along the columns. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

/-- What grid point t writes back is block t of relu(a + b) · W of the three arrays the region read. -/
theorem flushed_eq (c : Dev nD) (t : Fin cfg1.N) :
    (dat1 V c).flushed 3 t = ((cfg1.win 3).blk t).view.read (Elt Ideal)
      (reluDot (R := 50000) (K := 64) (N := 64) (V c main_v44) (rowOf (V c main_v45)) (V c main_arg5)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  have ht : t.val < 5 := lt_of_lt_of_eq t.isLt N_1
  have hp : p.val < 10000 := p.isLt
  have hP : ((cfg1.win 3).blk t).view.emb (ix2 p q) = ix2 (⟨t.val * 10000 + p.val, by omega⟩ : Fin 50000) q := by
    funext a; apply Fin.ext
    match a with
    | ⟨0, _⟩ => show win1_3.index t (0 : Fin 2) * 10000 + 1 * p.val = t.val * 10000 + p.val; rw [e7]; omega
    | ⟨1, _⟩ => show win1_3.index t (1 : Fin 2) * 64 + 1 * q.val = q.val; rw [e6]; omega
  show k1_pay1 (F := Ideal) (iblk1 V c 0 t) (iblk1 V c 1 t) (iblk1 V c 2 t) (ix2 p q)
    = reluDot (R := 50000) (K := 64) (N := 64) (V c main_v44) (rowOf (V c main_v45)) (V c main_arg5)
        (((cfg1.win 3).blk t).view.emb (ix2 p q))
  rw [hP]
  refine (pay_at (iblk1 V c 0 t) (iblk1 V c 1 t) (iblk1 V c 2 t) p q).trans ?_
  refine reluDotAt_congr (R := 10000) (R' := 50000) (K := 64) (N := 64) _ _ _ _ _ _ p _ (fun k => ?_) (fun k => ?_) (fun k q' => ?_) q
  · show V c main_v44 (((cfg1.win 0).blk t).view.emb (ix2 p k)) = V c main_v44 (ix2 (⟨t.val * 10000 + p.val, by omega⟩ : Fin 50000) k)
    refine congrArg (V c main_v44) (funext fun a => Fin.ext ?_)
    match a with
    | ⟨0, _⟩ => show win1_0.index t (0 : Fin 2) * 10000 + 1 * p.val = t.val * 10000 + p.val; rw [e0, e7]; omega
    | ⟨1, _⟩ => show win1_0.index t (1 : Fin 2) * 64 + 1 * k.val = k.val; rw [e1]; omega
  · show V c main_v45 (((cfg1.win 1).blk t).view.emb (ix2 (0 : Fin 1) k)) = V c main_v45 (ix2 (0 : Fin 1) k)
    refine congrArg (V c main_v45) (funext fun a => Fin.ext ?_)
    match a with
    | ⟨0, _⟩ => show win1_1.index t (0 : Fin 2) * 1 + 1 * 0 = 0; rw [e2]
    | ⟨1, _⟩ => show win1_1.index t (1 : Fin 2) * 64 + 1 * k.val = k.val; rw [e3]; omega
  · show V c main_arg5 (((cfg1.win 2).blk t).view.emb (ix2 k q')) = V c main_arg5 (ix2 k q')
    refine congrArg (V c main_arg5) (funext fun a => Fin.ext ?_)
    match a with
    | ⟨0, _⟩ => show win1_2.index t (0 : Fin 2) * 64 + 1 * k.val = k.val; rw [e4]; omega
    | ⟨1, _⟩ => show win1_2.index t (1 : Fin 2) * 64 + 1 * q'.val = q'.val; rw [e5]; omega

/-- An index of the output array lies in grid point t's block when its row is among the block's 10000 rows. -/
theorem mem_blk (t : Fin cfg1.N) (i : S50000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v46).slice (win1_3.rect t)).set ↔ _
  rw [View.set_slice_whole, Rect.mem_set_unit]
  exact Iff.rfl

/-- Every row of the output array is written back by the grid point its block of 10000 rows belongs to. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : (i 0).val / 10000 < cfg1.N := lt_of_lt_of_eq (by omega : (i 0).val / 10000 < 5) N_1.symm
  refine ⟨⟨(i 0).val / 10000, hN⟩, flush1_3 _, ?_⟩
  rw [mem_blk]
  obtain ⟨e0, e1, e2, e3, e4, e5, e6, e7⟩ := idx_facts ⟨(i 0).val / 10000, hN⟩
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e7]; show (i 0).val / 10000 * 10000 ≤ (i 0).val ∧ (i 0).val < (i 0).val / 10000 * 10000 + 10000; omega
  | ⟨1, _⟩ =>
    show win1_3.index ⟨(i 0).val / 10000, hN⟩ (1 : Fin 2) * 64 ≤ (i 1).val
      ∧ (i 1).val < win1_3.index ⟨(i 0).val / 10000, hN⟩ (1 : Fin 2) * 64 + 64
    rw [e6]; omega

/-- When the region has run, its output array is relu(a + b) · W of the three arrays it read. -/
theorem arr_eq (c : Dev nD) :
    (dat1 V c).arrAt 3 cfg1.N
      = reluDot (R := 50000) (K := 64) (N := 64) (V c main_v44) (rowOf (V c main_v45)) (V c main_arg5) :=
  (dat1 V c).arrAt_eq_of_cover 3 _ (fun t _ => flushed_eq V c t) cover

end Cert.KernelIdeal.Region1

end
-- ==== Proof.Region2.lean ====
/-
  The third region of the kernel program adds a bias row to the aggregated node rows, rectifies, and multiplies by a 64-by-64
  weight matrix, one block of 10000 consecutive rows per grid point; the bias row (one row of 64) and the weights are read
  whole at every point. Row r of relu(a + b) · W depends only on row r of a, so block t of the result for the whole matrix is
  the result for block t, and the five blocks cover the 50000 rows: when the region has run, its output array is
  relu(a + b) · W of the three arrays it read, as they were when the region was entered, b being the one row of the bias array.
-/
import proofs.«125427_j42159398977692_2_alg».proof.Proof.Gen.KernelIdeal.Frame
import proofs.«125427_j42159398977692_2_alg».proof.Proof.LibReluDot
import proofs.«125427_j42159398977692_2_alg».proof.Proof.LibRowBias
import Idealize.ShloMosaic.Lib.Pipeline.Value
import Idealize.ShloMosaic.Lib.ValueIdx

set_option maxRecDepth 16384

noncomputable section

namespace Cert.KernelIdeal.Region2

open Cert.KernelIdeal Cert.KernelIdeal.Gen Cert.LibReluDot Cert.LibRowBias
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): the rectified, biased row p of the loaded block against column q of the weights. -/
theorem pay_at (x0 : FVec Ideal S10000x64 .f32) (x1 : FVec Ideal S1x64 .f32) (x2 : FVec Ideal S64x64 .f32)
    (p : Fin 10000) (q : Fin 64) :
    k2_pay1 (F := Ideal) x0 x1 x2 (ix2 p q) = reluDotAt x0 (rowOf x1) x2 p q := by
  unfold k2_pay1
  refine matmul_relu_at (R := 10000) (K := 64) (N := 64) _ (truncf .bf16 x2 bitsLt_bf16_f32) x0 (rowOf x1) (fun p k => ?_) p q
  show max (shapeCast S10000x64 x0 shapeCasts_S10000x64_S10000x64 (ix2 p k)
      + broadcastTo S10000x64 (shapeCast S1x64 x1 shapeCasts_S1x64_S1x64) broadcasts_S1x64_S10000x64 (ix2 p k))
    (Scalar.ofBits (F := Ideal) .f32 0x00000000#32) = _
  rw [shapeCast_self, bias_block x1 shapeCasts_S1x64_S1x64 broadcasts_S1x64_S10000x64 p k]
  rfl

/-- The block index maps over the grid: the row blocks of the input and of the output move together, the bias row and
    the weights stay at the origin, and no block moves along the columns. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- What grid point t writes back is block t of relu(a + b) · W of the three arrays the region read. -/
theorem flushed_eq (c : Dev nD) (t : Fin cfg2.N) :
    (dat2 V c).flushed 3 t = ((cfg2.win 3).blk t).view.read (Elt Ideal)
      (reluDot (R := 50000) (K := 64) (N := 64) (V c main_v60) (rowOf (V c main_v61)) (V c main_arg7)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  obtain ⟨p, q, rfl⟩ : ∃ (p : Fin 10000) (q : Fin 64), j = ix2 p q := ⟨j 0, j 1, eq_ix2 j⟩
  have ht : t.val < 5 := lt_of_lt_of_eq t.isLt N_2
  have hp : p.val < 10000 := p.isLt
  have hP : ((cfg2.win 3).blk t).view.emb (ix2 p q) = ix2 (⟨t.val * 10000 + p.val, by omega⟩ : Fin 50000) q := by
    funext a; apply Fin.ext
    match a with
    | ⟨0, _⟩ => show win2_3.index t (0 : Fin 2) * 10000 + 1 * p.val = t.val * 10000 + p.val; rw [e7]; omega
    | ⟨1, _⟩ => show win2_3.index t (1 : Fin 2) * 64 + 1 * q.val = q.val; rw [e6]; omega
  show k2_pay1 (F := Ideal) (iblk2 V c 0 t) (iblk2 V c 1 t) (iblk2 V c 2 t) (ix2 p q)
    = reluDot (R := 50000) (K := 64) (N := 64) (V c main_v60) (rowOf (V c main_v61)) (V c main_arg7)
        (((cfg2.win 3).blk t).view.emb (ix2 p q))
  rw [hP]
  refine (pay_at (iblk2 V c 0 t) (iblk2 V c 1 t) (iblk2 V c 2 t) p q).trans ?_
  refine reluDotAt_congr (R := 10000) (R' := 50000) (K := 64) (N := 64) _ _ _ _ _ _ p _ (fun k => ?_) (fun k => ?_) (fun k q' => ?_) q
  · show V c main_v60 (((cfg2.win 0).blk t).view.emb (ix2 p k)) = V c main_v60 (ix2 (⟨t.val * 10000 + p.val, by omega⟩ : Fin 50000) k)
    refine congrArg (V c main_v60) (funext fun a => Fin.ext ?_)
    match a with
    | ⟨0, _⟩ => show win2_0.index t (0 : Fin 2) * 10000 + 1 * p.val = t.val * 10000 + p.val; rw [e0, e7]; omega
    | ⟨1, _⟩ => show win2_0.index t (1 : Fin 2) * 64 + 1 * k.val = k.val; rw [e1]; omega
  · show V c main_v61 (((cfg2.win 1).blk t).view.emb (ix2 (0 : Fin 1) k)) = V c main_v61 (ix2 (0 : Fin 1) k)
    refine congrArg (V c main_v61) (funext fun a => Fin.ext ?_)
    match a with
    | ⟨0, _⟩ => show win2_1.index t (0 : Fin 2) * 1 + 1 * 0 = 0; rw [e2]
    | ⟨1, _⟩ => show win2_1.index t (1 : Fin 2) * 64 + 1 * k.val = k.val; rw [e3]; omega
  · show V c main_arg7 (((cfg2.win 2).blk t).view.emb (ix2 k q')) = V c main_arg7 (ix2 k q')
    refine congrArg (V c main_arg7) (funext fun a => Fin.ext ?_)
    match a with
    | ⟨0, _⟩ => show win2_2.index t (0 : Fin 2) * 64 + 1 * k.val = k.val; rw [e4]; omega
    | ⟨1, _⟩ => show win2_2.index t (1 : Fin 2) * 64 + 1 * q'.val = q'.val; rw [e5]; omega

/-- An index of the output array lies in grid point t's block when its row is among the block's 10000 rows. -/
theorem mem_blk (t : Fin cfg2.N) (i : S50000x64.Idx) :
    i ∈ ((cfg2.win 3).blk t).view.set ↔ ∀ a : Fin 2, win2_3.index t a * S10000x64.size a ≤ (i a).val
      ∧ (i a).val < win2_3.index t a * S10000x64.size a + S10000x64.size a := by
  show i ∈ ((View.whole main_v62).slice (win2_3.rect t)).set ↔ _
  rw [View.set_slice_whole, Rect.mem_set_unit]
  exact Iff.rfl

/-- Every row of the output array is written back by the grid point its block of 10000 rows belongs to. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 10000 < cfg2.N := lt_of_lt_of_eq (by omega : (i 0).val / 10000 < 5) N_2.symm
  refine ⟨⟨(i 0).val / 10000, hN⟩, flush2_3 _, ?_⟩
  rw [mem_blk]
  obtain ⟨e0, e1, e2, e3, e4, e5, e6, e7⟩ := idx_facts ⟨(i 0).val / 10000, hN⟩
  intro a
  match a with
  | ⟨0, _⟩ =>
    show win2_3.index ⟨(i 0).val / 10000, hN⟩ (0 : Fin 2) * 10000 ≤ (i 0).val
      ∧ (i 0).val < win2_3.index ⟨(i 0).val / 10000, hN⟩ (0 : Fin 2) * 10000 + 10000
    rw [e7]; show (i 0).val / 10000 * 10000 ≤ (i 0).val ∧ (i 0).val < (i 0).val / 10000 * 10000 + 10000; omega
  | ⟨1, _⟩ =>
    show win2_3.index ⟨(i 0).val / 10000, hN⟩ (1 : Fin 2) * 64 ≤ (i 1).val
      ∧ (i 1).val < win2_3.index ⟨(i 0).val / 10000, hN⟩ (1 : Fin 2) * 64 + 64
    rw [e6]; omega

/-- When the region has run, its output array is relu(a + b) · W of the three arrays it read. -/
theorem arr_eq (c : Dev nD) :
    (dat2 V c).arrAt 3 cfg2.N
      = reluDot (R := 50000) (K := 64) (N := 64) (V c main_v60) (rowOf (V c main_v61)) (V c main_arg7) :=
  (dat2 V c).arrAt_eq_of_cover 3 _ (fun t _ => flushed_eq V c t) cover

end Cert.KernelIdeal.Region2

end
-- ==== Proof.Region3.lean ====
/-
  The last region of the kernel program is the two-layer head on the 512 pooled graph rows, at a single grid point that
  reads every operand whole: relu(h · W1 + b1) · W2 + b2, with h of 512 rows of 64, W1 64 by 64, W2 one column of 64, and
  the two biases kept as one-row matrices. When the region has run, its output column of 512 entries is that function of
  the five arrays it read, as they were when the region was entered.
-/
import proofs.«125427_j42159398977692_2_alg».proof.Proof.Gen.KernelIdeal.Frame
import proofs.«125427_j42159398977692_2_alg».proof.Proof.LibReluDot
import proofs.«125427_j42159398977692_2_alg».proof.Proof.LibRowBias
import Idealize.ShloMosaic.Lib.Pipeline.Value
import Idealize.ShloMosaic.Lib.ValueIdx

set_option maxRecDepth 16384

noncomputable section

namespace Cert.KernelIdeal.Region3

open Cert.KernelIdeal Cert.KernelIdeal.Gen Cert.LibReluDot Cert.LibRowBias
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The head's entry (p, q) is unchanged when every operand is replaced by one that agrees with it entry by entry. -/
theorem head_congr {R K N M : ℕ} (h h' : (⟨2, ![R, K]⟩ : Shape).Idx → EReal) (W1 W1' : (⟨2, ![K, N]⟩ : Shape).Idx → EReal)
    (b1 b1' : (⟨1, ![N]⟩ : Shape).Idx → EReal) (W2 W2' : (⟨2, ![N, M]⟩ : Shape).Idx → EReal)
    (b2 b2' : (⟨1, ![M]⟩ : Shape).Idx → EReal) (p : Fin R)
    (hh : ∀ j : Fin K, h (ix2 p j) = h' (ix2 p j)) (hW1 : ∀ (j : Fin K) (k : Fin N), W1 (ix2 j k) = W1' (ix2 j k))
    (hb1 : ∀ k : Fin N, b1 (ix1 k) = b1' (ix1 k)) (hW2 : ∀ (k : Fin N) (q : Fin M), W2 (ix2 k q) = W2' (ix2 k q))
    (hb2 : ∀ q : Fin M, b2 (ix1 q) = b2' (ix1 q)) (q : Fin M) :
    reluAffineAt h W1 b1 W2 b2 p q = reluAffineAt h' W1' b1' W2' b2' p q := by
  unfold reluAffineAt
  rw [hb2 q]
  refine congrArg (· + b2' (ix1 q)) (Finset.sum_congr rfl fun k _ => ?_)
  rw [hb1 k, hW2 k q]
  refine congrArg (fun s => max (s + b1' (ix1 k)) z32 * W2' (ix2 k q)) (Finset.sum_congr rfl fun j _ => ?_)
  rw [hh j, hW1 j k]

/-- The body's stored value at (p, q): the head's entry, the biases being the rows of the two one-row blocks. -/
theorem pay_at (x0 : FVec Ideal S512x64 .f32) (x1 : FVec Ideal S64x64 .f32) (x2 : FVec Ideal S1x64 .f32)
    (x3 : FVec Ideal S64x1 .f32) (x4 : FVec Ideal S1x1 .f32) (p : Fin 512) (q : Fin 1) :
    k3_pay1 (F := Ideal) x0 x1 x2 x3 x4 (ix2 p q) = reluAffineAt x0 x1 (rowOf x2) x3 (rowOf x4) p q := by
  unfold k3_pay1
  refine matmul_reluAffine_at (R := 512) (K := 64) (N := 64) (M := 1) _ (truncf .bf16 x3 bitsLt_bf16_f32)
    (broadcastTo S512x1 (shapeCast S1x1 x4 shapeCasts_S1x1_S1x1) broadcasts_S1x1_S512x1) x0 x1 (rowOf x2) (rowOf x4)
    (fun p k => ?_) (fun p q => bias_block x4 shapeCasts_S1x1_S1x1 broadcasts_S1x1_S512x1 p q) p q
  have h1 := Cert.LibPlainDot.matmul_plain (R := 512) (K := 64) (N := 64)
    (truncf .bf16 (shapeCast S512x64 x0 shapeCasts_S512x64_S512x64) bitsLt_bf16_f32) (truncf .bf16 x1 bitsLt_bf16_f32) p k
  have h2 := bias_block x2 shapeCasts_S1x64_S1x64 broadcasts_S1x64_S512x64 p k
  refine (congrArg₂ (fun u v => max (u + v) z32) h1 h2).trans ?_
  rw [shapeCast_self]
  rfl

/-- At the one grid point every block sits at the origin of its array. -/
theorem idx_facts : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- What the grid point writes back is the head of the five arrays the region read. -/
theorem flushed_eq (c : Dev nD) (t : Fin cfg3.N) :
    (dat3 V c).flushed 5 t = ((cfg3.win 5).blk t).view.read (Elt Ideal)
      (fun i => reluAffineAt (R := 512) (K := 64) (N := 64) (M := 1) (V c main_v92) (V c main_arg9) (rowOf (V c main_v93))
        (V c main_arg11) (rowOf (V c main_v94)) (i 0) (i 1)) := by
  show (cfg3.win 5).cut (grid3.coords t) ((dat3 V c).after 5 t) = _
  rw [after3_5]
  unfold out3_5
  rw [View.canon_unit_zero hz]
  simp only [View.ld_unit_zero (S := S512x64) hz, View.ld_unit_zero (S := S64x64) hz, View.ld_unit_zero (S := S1x64) hz,
    View.ld_unit_zero (S := S64x1) hz, View.ld_unit_zero (S := S1x1) hz]
  obtain ⟨a00, a01, a10, a11, a20, a21, a30, a31, a40, a41, a50, a51⟩ := idx_facts t
  funext j
  obtain ⟨p, q, rfl⟩ : ∃ (p : Fin 512) (q : Fin 1), j = ix2 p q := ⟨j 0, j 1, eq_ix2 j⟩
  have hP : ((cfg3.win 5).blk t).view.emb (ix2 p q) = ix2 p q := by
    funext a; apply Fin.ext
    match a with
    | ⟨0, _⟩ => show win3_5.index t (0 : Fin 2) * 512 + 1 * p.val = p.val; rw [a50]; omega
    | ⟨1, _⟩ => show win3_5.index t (1 : Fin 2) * 1 + 1 * q.val = q.val; rw [a51]; omega
  show k3_pay1 (F := Ideal) (iblk3 V c 0 t) (iblk3 V c 1 t) (iblk3 V c 2 t) (iblk3 V c 3 t) (iblk3 V c 4 t) (ix2 p q)
    = (fun i => reluAffineAt (R := 512) (K := 64) (N := 64) (M := 1) (V c main_v92) (V c main_arg9) (rowOf (V c main_v93))
        (V c main_arg11) (rowOf (V c main_v94)) (i 0) (i 1)) (((cfg3.win 5).blk t).view.emb (ix2 p q))
  rw [hP]
  refine (pay_at (iblk3 V c 0 t) (iblk3 V c 1 t) (iblk3 V c 2 t) (iblk3 V c 3 t) (iblk3 V c 4 t) p q).trans ?_
  refine head_congr (R := 512) (K := 64) (N := 64) (M := 1) _ _ _ _ _ _ _ _ _ _ p (fun j => ?_) (fun j k => ?_) (fun k => ?_)
    (fun k q' => ?_) (fun q' => ?_) q
  · show V c main_v92 (((cfg3.win 0).blk t).view.emb (ix2 p j)) = V c main_v92 (ix2 p j)
    refine congrArg (V c main_v92) (funext fun a => Fin.ext ?_)
    match a with
    | ⟨0, _⟩ => show win3_0.index t (0 : Fin 2) * 512 + 1 * p.val = p.val; rw [a00]; omega
    | ⟨1, _⟩ => show win3_0.index t (1 : Fin 2) * 64 + 1 * j.val = j.val; rw [a01]; omega
  · show V c main_arg9 (((cfg3.win 1).blk t).view.emb (ix2 j k)) = V c main_arg9 (ix2 j k)
    refine congrArg (V c main_arg9) (funext fun a => Fin.ext ?_)
    match a with
    | ⟨0, _⟩ => show win3_1.index t (0 : Fin 2) * 64 + 1 * j.val = j.val; rw [a10]; omega
    | ⟨1, _⟩ => show win3_1.index t (1 : Fin 2) * 64 + 1 * k.val = k.val; rw [a11]; omega
  · show V c main_v93 (((cfg3.win 2).blk t).view.emb (ix2 (0 : Fin 1) k)) = V c main_v93 (ix2 (0 : Fin 1) k)
    refine congrArg (V c main_v93) (funext fun a => Fin.ext ?_)
    match a with
    | ⟨0, _⟩ => show win3_2.index t (0 : Fin 2) * 1 + 1 * (0 : ℕ) = (0 : ℕ); rw [a20]
    | ⟨1, _⟩ => show win3_2.index t (1 : Fin 2) * 64 + 1 * k.val = k.val; rw [a21]; omega
  · show V c main_arg11 (((cfg3.win 3).blk t).view.emb (ix2 k q')) = V c main_arg11 (ix2 k q')
    refine congrArg (V c main_arg11) (funext fun a => Fin.ext ?_)
    match a with
    | ⟨0, _⟩ => show win3_3.index t (0 : Fin 2) * 64 + 1 * k.val = k.val; rw [a30]; omega
    | ⟨1, _⟩ => show win3_3.index t (1 : Fin 2) * 1 + 1 * q'.val = q'.val; rw [a31]; omega
  · show V c main_v94 (((cfg3.win 4).blk t).view.emb (ix2 (0 : Fin 1) q')) = V c main_v94 (ix2 (0 : Fin 1) q')
    refine congrArg (V c main_v94) (funext fun a => Fin.ext ?_)
    match a with
    | ⟨0, _⟩ => show win3_4.index t (0 : Fin 2) * 1 + 1 * (0 : ℕ) = (0 : ℕ); rw [a40]
    | ⟨1, _⟩ => show win3_4.index t (1 : Fin 2) * 1 + 1 * q'.val = q'.val; rw [a41]; omega

/-- An index of the output column lies in the one grid point's block, which is the whole column. -/
theorem mem_blk (t : Fin cfg3.N) (i : S512x1.Idx) :
    i ∈ ((cfg3.win 5).blk t).view.set ↔ ∀ a : Fin 2, win3_5.index t a * S512x1.size a ≤ (i a).val
      ∧ (i a).val < win3_5.index t a * S512x1.size a + S512x1.size a := by
  show i ∈ ((View.whole main_v95).slice (win3_5.rect t)).set ↔ _
  rw [View.set_slice_whole, Rect.mem_set_unit]
  exact Iff.rfl

/-- The one grid point's block covers the output column. -/
theorem cover (i : S512x1.Idx) :
    ∃ t : Fin cfg3.N, (cfg3.win 5).flush t = true ∧ i ∈ ((cfg3.win 5).blk t).view.set := by
  have hi0 : (i 0).val < 512 := (i 0).isLt
  have hi1 : (i 1).val < 1 := (i 1).isLt
  have hN : 0 < cfg3.N := lt_of_lt_of_eq (by omega : 0 < 1) N_3.symm
  refine ⟨⟨0, hN⟩, flush3_5 _, ?_⟩
  rw [mem_blk]
  obtain ⟨a00, a01, a10, a11, a20, a21, a30, a31, a40, a41, a50, a51⟩ := idx_facts ⟨0, hN⟩
  intro a
  match a with
  | ⟨0, _⟩ =>
    show win3_5.index ⟨0, hN⟩ (0 : Fin 2) * 512 ≤ (i 0).val ∧ (i 0).val < win3_5.index ⟨0, hN⟩ (0 : Fin 2) * 512 + 512
    rw [a50]; omega
  | ⟨1, _⟩ =>
    show win3_5.index ⟨0, hN⟩ (1 : Fin 2) * 1 ≤ (i 1).val ∧ (i 1).val < win3_5.index ⟨0, hN⟩ (1 : Fin 2) * 1 + 1
    rw [a51]; omega

/-- When the region has run, its output column is the head of the five arrays it read. -/
theorem arr_eq (c : Dev nD) :
    (dat3 V c).arrAt 5 cfg3.N
      = (fun i => reluAffineAt (R := 512) (K := 64) (N := 64) (M := 1) (V c main_v92) (V c main_arg9) (rowOf (V c main_v93))
        (V c main_arg11) (rowOf (V c main_v94)) (i 0) (i 1)) :=
  (dat3 V c).arrAt_eq_of_cover 5 _ (fun t _ => flushed_eq V c t) cover

end Cert.KernelIdeal.Region3

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.KStages.lean ====
/-
  The kernel program's host operations between its regions, read stretch by stretch: after each stretch (and after each
  region) the buffers that later operations read hold the same functions of the argument arrays as the reference program's
  stages. The edge lists (sources and targets with the self loops appended) and the edge weights are computed once, before the
  first region, and are not written again; each aggregation between two regions gathers the rows of the previous region's
  output, scales them by the edge weights and sums them into their target rows, which is the reference's aggregation of the
  same rows (the kernel's rows are kept in a narrower float format, which is no change on extended reals); the pooling
  before the last region is the reference's pooling.
-/
import proofs.«125427_j42159398977692_2_alg».proof.Proof.Gen.KernelIdeal.Frame
import proofs.«125427_j42159398977692_2_alg».proof.Proof.RefStages
import proofs.«125427_j42159398977692_2_alg».proof.Proof.Region0
import proofs.«125427_j42159398977692_2_alg».proof.Proof.Region1
import proofs.«125427_j42159398977692_2_alg».proof.Proof.Region2
import proofs.«125427_j42159398977692_2_alg».proof.Proof.Region3
import proofs.«125427_j42159398977692_2_alg».proof.Proof.LibTypedRefs
import Idealize.ShloMosaic.Lib.StableHlo.Run

set_option maxRecDepth 16384

noncomputable section

namespace Cert.KernelIdeal.KStages

open Cert.KernelIdeal Cert.KernelIdeal.Gen Cert.LibReluDot Cert.LibRowBias
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

macro "results_rw" : tactic =>
  `(tactic| repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)))

/-- Walks a buffer that nothing writes down through the stretches and regions to its launch contents. -/
macro "arg_down" : tactic =>
  `(tactic| repeat (first
      | after_results_simp
      | (rw [W12_of_ne]; rotate_left; decide)
      | (rw [W8_of_ne]; rotate_left; decide)
      | (rw [W6_of_ne]; rotate_left; decide)
      | (rw [W4_of_ne]; rotate_left; decide)))

/-! ## Before the first region: the edge lists and the edge weights -/

theorem W1_v5 : W1 m ρ c (Proc.devRef .tc main_v5) = (Cert.ReferenceIdeal.Read.val_main_v6 (F := Ideal) (m ((c : Thread nD τ).loc main_arg1))) := by
  after_results
  rfl
theorem W1_v6 : W1 m ρ c (Proc.devRef .tc main_v6) = (Cert.ReferenceIdeal.Read.val_main_v7 (F := Ideal) (m ((c : Thread nD τ).loc main_arg1))) := by
  after_results
  rfl
set_option maxHeartbeats 4000000 in
theorem W1_v12 : W1 m ρ c (Proc.devRef .tc main_v12) = Cert.ReferenceIdeal.Read.val_main_v13 (F := Ideal) (m ((c : Thread nD τ).loc main_arg1)) := by
  after_results_simp
  results_rw
  rfl
set_option maxHeartbeats 4000000 in
theorem W1_v13 : W1 m ρ c (Proc.devRef .tc main_v13) = Cert.ReferenceIdeal.Read.val_main_v14 (F := Ideal) (m ((c : Thread nD τ).loc main_arg1)) := by
  after_results_simp
  results_rw
  rfl
theorem W1_cst_2 : W1 m ρ c (Proc.devRef .tc main_cst_2) = Cert.ReferenceIdeal.Read.val_main_cst_2 (F := Ideal) := by
  after_results_simp
  rfl

theorem W2_v5 : W2 m ρ c (Proc.devRef .tc main_v5) = (Cert.ReferenceIdeal.Read.val_main_v6 (F := Ideal) (m ((c : Thread nD τ).loc main_arg1))) := by
  have h := W1_v5 m ρ c
  show StableHlo.after hostOps0_1 (W1 m ρ c) (Proc.devRef .tc main_v5) = _
  generalize W1 m ρ c = W at h ⊢
  after_results_simp
  exact h
theorem W2_v6 : W2 m ρ c (Proc.devRef .tc main_v6) = (Cert.ReferenceIdeal.Read.val_main_v7 (F := Ideal) (m ((c : Thread nD τ).loc main_arg1))) := by
  have h := W1_v6 m ρ c
  show StableHlo.after hostOps0_1 (W1 m ρ c) (Proc.devRef .tc main_v6) = _
  generalize W1 m ρ c = W at h ⊢
  after_results_simp
  exact h
theorem W2_v14 : W2 m ρ c (Proc.devRef .tc main_v14) = Cert.ReferenceIdeal.Read.val_main_v15 (F := Ideal) (m ((c : Thread nD τ).loc main_arg1)) := by
  have h12 := W1_v12 m ρ c; have h13 := W1_v13 m ρ c; have hc := W1_cst_2 m ρ c
  show StableHlo.after hostOps0_1 (W1 m ρ c) (Proc.devRef .tc main_v14) = _
  generalize W1 m ρ c = W at h12 h13 hc ⊢
  after_results_simp
  simp only [Cert.LibTypedRefs.ofBuf_toBuf]
  generalize W (Proc.devRef .tc main_v12) = a at h12 ⊢
  generalize W (Proc.devRef .tc main_v13) = b at h13 ⊢
  generalize W (Proc.devRef .tc main_cst_2) = z at hc ⊢
  refine (show _ = select a b (broadcastInDim S50000 ![] bcast_S_S50000 (id z)) from rfl).trans ?_
  rw [h12, h13, hc]
  rfl

theorem W3_v5 : W3 m ρ c (Proc.devRef .tc main_v5) = (Cert.ReferenceIdeal.Read.val_main_v6 (F := Ideal) (m ((c : Thread nD τ).loc main_arg1))) := by
  have h := W2_v5 m ρ c
  show StableHlo.after hostOps0_2 (W2 m ρ c) (Proc.devRef .tc main_v5) = _
  generalize W2 m ρ c = W at h ⊢
  after_results_simp
  exact h
theorem W3_v6 : W3 m ρ c (Proc.devRef .tc main_v6) = (Cert.ReferenceIdeal.Read.val_main_v7 (F := Ideal) (m ((c : Thread nD τ).loc main_arg1))) := by
  have h := W2_v6 m ρ c
  show StableHlo.after hostOps0_2 (W2 m ρ c) (Proc.devRef .tc main_v6) = _
  generalize W2 m ρ c = W at h ⊢
  after_results_simp
  exact h
theorem W3_v29 : W3 m ρ c (Proc.devRef .tc main_v29) = (Cert.ReferenceIdeal.Read.val_main_v30 (F := Ideal) (m ((c : Thread nD τ).loc main_arg1))) := by
  have h5 := W2_v5 m ρ c; have h6 := W2_v6 m ρ c; have h14 := W2_v14 m ρ c
  show StableHlo.after hostOps0_2 (W2 m ρ c) (Proc.devRef .tc main_v29) = _
  generalize W2 m ρ c = W at h5 h6 h14 ⊢
  after_results_simp
  rw [h5, h6, h14]
  rfl
theorem W3_arg0 : W3 m ρ c (Proc.devRef .tc main_arg0) = (m ((c : Thread nD τ).loc main_arg0)) := by
  arg_down
theorem W3_arg3 : W3 m ρ c (Proc.devRef .tc main_arg3) = (m ((c : Thread nD τ).loc main_arg3)) := by
  arg_down

/-! ## The first region and the first aggregation -/

theorem W4_v30 : W4 m ρ c (Proc.devRef .tc main_v30) = (Cert.ReferenceIdeal.Read.val_main_v4 (F := Ideal) (m ((c : Thread nD τ).loc main_arg0)) (m ((c : Thread nD τ).loc main_arg3))) := by
  refine (W4_arr m ρ c 2).trans ((Cert.KernelIdeal.Region0.arr_eq (V3 m ρ) c).trans ?_)
  rw [Cert.ReferenceIdeal.Stages.v4_eq]
  exact congrArg₂ (dot (R := 50000) (K := 64) (N := 64)) (W3_arg0 m ρ c) (W3_arg3 m ρ c)
theorem W4_v5 : W4 m ρ c (Proc.devRef .tc main_v5) = (Cert.ReferenceIdeal.Read.val_main_v6 (F := Ideal) (m ((c : Thread nD τ).loc main_arg1))) :=
  (W4_of_ne m ρ c main_v5 (by decide)).trans (W3_v5 m ρ c)
theorem W4_v6 : W4 m ρ c (Proc.devRef .tc main_v6) = (Cert.ReferenceIdeal.Read.val_main_v7 (F := Ideal) (m ((c : Thread nD τ).loc main_arg1))) :=
  (W4_of_ne m ρ c main_v6 (by decide)).trans (W3_v6 m ρ c)
theorem W4_v29 : W4 m ρ c (Proc.devRef .tc main_v29) = (Cert.ReferenceIdeal.Read.val_main_v30 (F := Ideal) (m ((c : Thread nD τ).loc main_arg1))) :=
  (W4_of_ne m ρ c main_v29 (by decide)).trans (W3_v29 m ρ c)

theorem W5_v44 : W5 m ρ c (Proc.devRef .tc main_v44) = Cert.ReferenceIdeal.Stages.agg (Cert.ReferenceIdeal.Read.val_main_v4 (F := Ideal) (m ((c : Thread nD τ).loc main_arg0)) (m ((c : Thread nD τ).loc main_arg3))) (m ((c : Thread nD τ).loc main_arg1)) := by
  have h30 := W4_v30 m ρ c; have h5 := W4_v5 m ρ c; have h6 := W4_v6 m ρ c; have h29 := W4_v29 m ρ c
  show StableHlo.after hostOps1 (W4 m ρ c) (Proc.devRef .tc main_v44) = _
  generalize W4 m ρ c = W at h30 h5 h6 h29 ⊢
  after_results_simp
  rw [h30, h5, h6, h29]
  generalize (Cert.ReferenceIdeal.Read.val_main_v4 (F := Ideal) (m ((c : Thread nD τ).loc main_arg0)) (m ((c : Thread nD τ).loc main_arg3))) = h
  rfl
theorem W5_v45 : rowOf (N := 64) (W5 m ρ c (Proc.devRef .tc main_v45)) = (m ((c : Thread nD τ).loc main_arg4)) := by
  have h : W5 m ρ c (Proc.devRef .tc main_v45) = shapeCast S1x64 (m ((c : Thread nD τ).loc main_arg4)) shapeCasts_S64_S1x64 := by
    arg_down <;> rfl
  rw [h]
  exact rowOf_shapeCast (N := 64) (m ((c : Thread nD τ).loc main_arg4)) shapeCasts_S64_S1x64
theorem W5_arg5 : W5 m ρ c (Proc.devRef .tc main_arg5) = (m ((c : Thread nD τ).loc main_arg5)) := by
  arg_down
theorem W5_v5 : W5 m ρ c (Proc.devRef .tc main_v5) = (Cert.ReferenceIdeal.Read.val_main_v6 (F := Ideal) (m ((c : Thread nD τ).loc main_arg1))) := by
  have h := W4_v5 m ρ c
  show StableHlo.after hostOps1 (W4 m ρ c) (Proc.devRef .tc main_v5) = _
  generalize W4 m ρ c = W at h ⊢
  after_results_simp
  exact h
theorem W5_v6 : W5 m ρ c (Proc.devRef .tc main_v6) = (Cert.ReferenceIdeal.Read.val_main_v7 (F := Ideal) (m ((c : Thread nD τ).loc main_arg1))) := by
  have h := W4_v6 m ρ c
  show StableHlo.after hostOps1 (W4 m ρ c) (Proc.devRef .tc main_v6) = _
  generalize W4 m ρ c = W at h ⊢
  after_results_simp
  exact h
theorem W5_v29 : W5 m ρ c (Proc.devRef .tc main_v29) = (Cert.ReferenceIdeal.Read.val_main_v30 (F := Ideal) (m ((c : Thread nD τ).loc main_arg1))) := by
  have h := W4_v29 m ρ c
  show StableHlo.after hostOps1 (W4 m ρ c) (Proc.devRef .tc main_v29) = _
  generalize W4 m ρ c = W at h ⊢
  after_results_simp
  exact h

end Cert.KernelIdeal.KStages

end
-- ==== Proof.KStages2.lean ====
/-
  The kernel program's host operations from the second region on, continued: the second and third aggregations, the pooling,
  and the head's result. After each stretch and each region the buffers that later operations read hold the reference
  program's stages of the argument arrays; in the end the result buffer holds the reference's result term.
-/
import proofs.«125427_j42159398977692_2_alg».proof.Proof.KStages

set_option maxRecDepth 16384

noncomputable section

namespace Cert.KernelIdeal.KStages

open Cert.KernelIdeal Cert.KernelIdeal.Gen Cert.LibReluDot Cert.LibRowBias
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

/-! ## The second region and the second aggregation -/

theorem W6_v46 : W6 m ρ c (Proc.devRef .tc main_v46) = (Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W6_arr m ρ c 3).trans ((Cert.KernelIdeal.Region1.arr_eq (V5 m ρ) c).trans ?_)
  rw [Cert.ReferenceIdeal.Stages.v48_eq, Cert.ReferenceIdeal.Stages.v43_agg]
  have e1 : V5 m ρ c main_v44 = Cert.ReferenceIdeal.Stages.agg (Cert.ReferenceIdeal.Read.val_main_v4 (F := Ideal) (m ((c : Thread nD τ).loc main_arg0)) (m ((c : Thread nD τ).loc main_arg3))) (m ((c : Thread nD τ).loc main_arg1)) := W5_v44 m ρ c
  have e2 : rowOf (N := 64) (V5 m ρ c main_v45) = (m ((c : Thread nD τ).loc main_arg4)) := W5_v45 m ρ c
  have e3 : V5 m ρ c main_arg5 = (m ((c : Thread nD τ).loc main_arg5)) := W5_arg5 m ρ c
  rw [e1, e2, e3]
theorem W6_v5 : W6 m ρ c (Proc.devRef .tc main_v5) = (Cert.ReferenceIdeal.Read.val_main_v6 (F := Ideal) (m ((c : Thread nD τ).loc main_arg1))) :=
  (W6_of_ne m ρ c main_v5 (by decide)).trans (W5_v5 m ρ c)
theorem W6_v6 : W6 m ρ c (Proc.devRef .tc main_v6) = (Cert.ReferenceIdeal.Read.val_main_v7 (F := Ideal) (m ((c : Thread nD τ).loc main_arg1))) :=
  (W6_of_ne m ρ c main_v6 (by decide)).trans (W5_v6 m ρ c)
theorem W6_v29 : W6 m ρ c (Proc.devRef .tc main_v29) = (Cert.ReferenceIdeal.Read.val_main_v30 (F := Ideal) (m ((c : Thread nD τ).loc main_arg1))) :=
  (W6_of_ne m ρ c main_v29 (by decide)).trans (W5_v29 m ρ c)

theorem W7_v60 : W7 m ρ c (Proc.devRef .tc main_v60) = Cert.ReferenceIdeal.Stages.agg (Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  have h46 := W6_v46 m ρ c; have h5 := W6_v5 m ρ c; have h6 := W6_v6 m ρ c; have h29 := W6_v29 m ρ c
  show StableHlo.after hostOps2 (W6 m ρ c) (Proc.devRef .tc main_v60) = _
  generalize W6 m ρ c = W at h46 h5 h6 h29 ⊢
  after_results_simp
  rw [h46, h5, h6, h29]
  generalize (Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5))) = h
  rfl
theorem W7_v61 : rowOf (N := 64) (W7 m ρ c (Proc.devRef .tc main_v61)) = (m ((c : Thread nD τ).loc main_arg6)) := by
  have h : W7 m ρ c (Proc.devRef .tc main_v61) = shapeCast S1x64 (m ((c : Thread nD τ).loc main_arg6)) shapeCasts_S64_S1x64 := by
    arg_down <;> rfl
  rw [h]
  exact rowOf_shapeCast (N := 64) (m ((c : Thread nD τ).loc main_arg6)) shapeCasts_S64_S1x64
theorem W7_arg7 : W7 m ρ c (Proc.devRef .tc main_arg7) = (m ((c : Thread nD τ).loc main_arg7)) := by
  arg_down
theorem W7_v5 : W7 m ρ c (Proc.devRef .tc main_v5) = (Cert.ReferenceIdeal.Read.val_main_v6 (F := Ideal) (m ((c : Thread nD τ).loc main_arg1))) := by
  have h := W6_v5 m ρ c
  show StableHlo.after hostOps2 (W6 m ρ c) (Proc.devRef .tc main_v5) = _
  generalize W6 m ρ c = W at h ⊢
  after_results_simp
  exact h
theorem W7_v6 : W7 m ρ c (Proc.devRef .tc main_v6) = (Cert.ReferenceIdeal.Read.val_main_v7 (F := Ideal) (m ((c : Thread nD τ).loc main_arg1))) := by
  have h := W6_v6 m ρ c
  show StableHlo.after hostOps2 (W6 m ρ c) (Proc.devRef .tc main_v6) = _
  generalize W6 m ρ c = W at h ⊢
  after_results_simp
  exact h
theorem W7_v29 : W7 m ρ c (Proc.devRef .tc main_v29) = (Cert.ReferenceIdeal.Read.val_main_v30 (F := Ideal) (m ((c : Thread nD τ).loc main_arg1))) := by
  have h := W6_v29 m ρ c
  show StableHlo.after hostOps2 (W6 m ρ c) (Proc.devRef .tc main_v29) = _
  generalize W6 m ρ c = W at h ⊢
  after_results_simp
  exact h

/-! ## The third region, the third aggregation and the pooling -/

theorem W8_v62 : W8 m ρ c (Proc.devRef .tc main_v62) = (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 3).trans ((Cert.KernelIdeal.Region2.arr_eq (V7 m ρ) c).trans ?_)
  rw [Cert.ReferenceIdeal.Stages.v92_eq, Cert.ReferenceIdeal.Stages.v87_agg]
  have e1 : V7 m ρ c main_v60 = Cert.ReferenceIdeal.Stages.agg (Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := W7_v60 m ρ c
  have e2 : rowOf (N := 64) (V7 m ρ c main_v61) = (m ((c : Thread nD τ).loc main_arg6)) := W7_v61 m ρ c
  have e3 : V7 m ρ c main_arg7 = (m ((c : Thread nD τ).loc main_arg7)) := W7_arg7 m ρ c
  rw [e1, e2, e3]
theorem W8_v5 : W8 m ρ c (Proc.devRef .tc main_v5) = (Cert.ReferenceIdeal.Read.val_main_v6 (F := Ideal) (m ((c : Thread nD τ).loc main_arg1))) :=
  (W8_of_ne m ρ c main_v5 (by decide)).trans (W7_v5 m ρ c)
theorem W8_v6 : W8 m ρ c (Proc.devRef .tc main_v6) = (Cert.ReferenceIdeal.Read.val_main_v7 (F := Ideal) (m ((c : Thread nD τ).loc main_arg1))) :=
  (W8_of_ne m ρ c main_v6 (by decide)).trans (W7_v6 m ρ c)
theorem W8_v29 : W8 m ρ c (Proc.devRef .tc main_v29) = (Cert.ReferenceIdeal.Read.val_main_v30 (F := Ideal) (m ((c : Thread nD τ).loc main_arg1))) :=
  (W8_of_ne m ρ c main_v29 (by decide)).trans (W7_v29 m ρ c)
theorem W8_arg8 : W8 m ρ c (Proc.devRef .tc main_arg8) = (m ((c : Thread nD τ).loc main_arg8)) := by
  arg_down

theorem W9_v79 : W9 m ρ c (Proc.devRef .tc main_v79) = (addf (F := Ideal) (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Cert.ReferenceIdeal.Read.val_main_v133 (F := Ideal) (m ((c : Thread nD τ).loc main_arg8)))) := by
  have h62 := W8_v62 m ρ c; have h5 := W8_v5 m ρ c; have h6 := W8_v6 m ρ c; have h29 := W8_v29 m ρ c
  have h8 := W8_arg8 m ρ c
  show StableHlo.after hostOps3 (W8 m ρ c) (Proc.devRef .tc main_v79) = _
  generalize W8 m ρ c = W at h62 h5 h6 h29 h8 ⊢
  after_results_simp
  rw [h62, h5, h6, h29, h8]
  generalize (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) = h
  rfl

theorem W10_v80 : W10 m ρ c (Proc.devRef .tc main_v80) = (maximumf (F := Ideal) (addf (F := Ideal) (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Cert.ReferenceIdeal.Read.val_main_v133 (F := Ideal) (m ((c : Thread nD τ).loc main_arg8)))) (Cert.ReferenceIdeal.Read.val_main_call5_v0 (F := Ideal))) := by
  have h79 := W9_v79 m ρ c
  show StableHlo.after hostOps3_1 (W9 m ρ c) (Proc.devRef .tc main_v80) = _
  generalize W9 m ρ c = W at h79 ⊢
  after_results_simp
  simp only [Cert.LibTypedRefs.ofBuf_toBuf]
  generalize W (Proc.devRef .tc main_v79) = u at h79 ⊢
  refine (show _ = maximumf u (broadcastInDim S50000x64 ![] bcast_S_S50000x64 (constant (F := Ideal) S_ .f32 0x00000000#32))
    from rfl).trans ?_
  rw [h79]
  generalize (addf (F := Ideal) (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (Cert.ReferenceIdeal.Read.val_main_v133 (F := Ideal) (m ((c : Thread nD τ).loc main_arg8)))) = u'
  rfl
theorem W10_arg2 : W10 m ρ c (Proc.devRef .tc main_arg2) = (m ((c : Thread nD τ).loc main_arg2)) := by
  arg_down

theorem W11_v92 : W11 m ρ c (Proc.devRef .tc main_v92) = Cert.ReferenceIdeal.Stages.pool (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg2)) := by
  have h80 := W10_v80 m ρ c; have h2 := W10_arg2 m ρ c
  show StableHlo.after hostOps3_2 (W10 m ρ c) (Proc.devRef .tc main_v92) = _
  generalize W10 m ρ c = W at h80 h2 ⊢
  after_results_simp
  rw [h80, h2]
  generalize (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) = g
  rfl
theorem W11_v93 : rowOf (N := 64) (W11 m ρ c (Proc.devRef .tc main_v93)) = (m ((c : Thread nD τ).loc main_arg10)) := by
  have h : W11 m ρ c (Proc.devRef .tc main_v93) = shapeCast S1x64 (m ((c : Thread nD τ).loc main_arg10)) shapeCasts_S64_S1x64 := by
    arg_down <;> rfl
  rw [h]
  exact rowOf_shapeCast (N := 64) (m ((c : Thread nD τ).loc main_arg10)) shapeCasts_S64_S1x64
theorem W11_v94 : rowOf (N := 1) (W11 m ρ c (Proc.devRef .tc main_v94)) = (m ((c : Thread nD τ).loc main_arg12)) := by
  have h : W11 m ρ c (Proc.devRef .tc main_v94) = shapeCast S1x1 (m ((c : Thread nD τ).loc main_arg12)) shapeCasts_S1_S1x1 := by
    arg_down <;> rfl
  rw [h]
  exact rowOf_shapeCast (N := 1) (m ((c : Thread nD τ).loc main_arg12)) shapeCasts_S1_S1x1
theorem W11_arg9 : W11 m ρ c (Proc.devRef .tc main_arg9) = (m ((c : Thread nD τ).loc main_arg9)) := by
  arg_down
theorem W11_arg11 : W11 m ρ c (Proc.devRef .tc main_arg11) = (m ((c : Thread nD τ).loc main_arg11)) := by
  arg_down

/-! ## The last region: the result -/

/-- When the kernel program has run, its result buffer holds the reference program's result term of the argument arrays. -/
theorem result_eq : W12 m ρ c (Proc.devRef .tc main_v95) = (Cert.ReferenceIdeal.Read.val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  refine (W12_arr m ρ c 5).trans ((Cert.KernelIdeal.Region3.arr_eq (V11 m ρ) c).trans ?_)
  rw [Cert.ReferenceIdeal.Stages.v156_eq, Cert.ReferenceIdeal.Stages.v147_pool, Cert.ReferenceIdeal.Stages.v131_agg]
  have e1 : V11 m ρ c main_v92 = Cert.ReferenceIdeal.Stages.pool (Cert.ReferenceIdeal.Stages.agg (Cert.ReferenceIdeal.Read.val_main_v92 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg1))) (m ((c : Thread nD τ).loc main_arg8)) (m ((c : Thread nD τ).loc main_arg2)) := W11_v92 m ρ c
  have e2 : V11 m ρ c main_arg9 = (m ((c : Thread nD τ).loc main_arg9)) := W11_arg9 m ρ c
  have e3 : rowOf (N := 64) (V11 m ρ c main_v93) = (m ((c : Thread nD τ).loc main_arg10)) := W11_v93 m ρ c
  have e4 : V11 m ρ c main_arg11 = (m ((c : Thread nD τ).loc main_arg11)) := W11_arg11 m ρ c
  have e5 : rowOf (N := 1) (V11 m ρ c main_v94) = (m ((c : Thread nD τ).loc main_arg12)) := W11_v94 m ρ c
  rw [e1, e2, e3, e4, e5]
  rfl

end Cert.KernelIdeal.KStages

end
-- ==== Proof.lean ====
/-
  The kernel program and its reference compute the same graph network: three graph-convolution layers — a dense projection
  of the node rows, then a normalised sum over each node's neighbourhood (self loops added, every edge weighted by the inverse
  square roots of its end points' degrees), a bias and a rectifier —, a mean over each graph's nodes, and a two-layer head.
  The kernel program computes the three projections and the head in four pipelined regions, row block by row block, and
  everything else by the same host operations as the reference; it keeps the projected rows in a narrower float format and
  computes the edge lists and edge weights once where the reference recomputes them per layer. On extended reals a change of
  float format is no change, a product computed one block of rows at a time is the product of the whole matrices, and the
  recomputed edge terms are the same functions of the edge array, so both programs end with the same result: no law of
  arithmetic beyond re-indexing finite sums is used, and the finiteness of the inputs is never needed.
  The three frame claims are the programs' runs with the results dropped; the idealization rewrote nothing.
-/
import proofs.«125427_j42159398977692_2_alg».proof.Defs
import proofs.«125427_j42159398977692_2_alg».proof.Proof.Gen.Kernel
import proofs.«125427_j42159398977692_2_alg».proof.Proof.Gen.Kernel.Skeleton
import proofs.«125427_j42159398977692_2_alg».proof.Proof.Gen.Kernel.Launch
import proofs.«125427_j42159398977692_2_alg».proof.Proof.Gen.Kernel.Points
import proofs.«125427_j42159398977692_2_alg».proof.Proof.Gen.Kernel.Frame
import proofs.«125427_j42159398977692_2_alg».proof.Proof.Gen.KernelIdeal
import proofs.«125427_j42159398977692_2_alg».proof.Proof.Gen.KernelIdeal.Skeleton
import proofs.«125427_j42159398977692_2_alg».proof.Proof.Gen.KernelIdeal.Launch
import proofs.«125427_j42159398977692_2_alg».proof.Proof.Gen.KernelIdeal.Points
import proofs.«125427_j42159398977692_2_alg».proof.Proof.Gen.KernelIdeal.Frame
import proofs.«125427_j42159398977692_2_alg».proof.Proof.Gen.ReferenceIdeal
import proofs.«125427_j42159398977692_2_alg».proof.Proof.Gen.Pre_finite_inputs
import proofs.«125427_j42159398977692_2_alg».proof.Proof.RefRun
import proofs.«125427_j42159398977692_2_alg».proof.Proof.RefRead
import proofs.«125427_j42159398977692_2_alg».proof.Proof.KRun
import proofs.«125427_j42159398977692_2_alg».proof.Proof.KStages
import proofs.«125427_j42159398977692_2_alg».proof.Proof.KStages2
import Idealize.ShloMosaic.Adequacy
import Idealize.ShloMosaic.Init

noncomputable section

namespace Cert.Proof

open Idealize.ShloMosaic Idealize.SL.Sem Cert.Kernel

/-- The word-level kernel program runs, and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference program's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the same result: the kernel program's result buffer
    holds the reference's result term of the kernel's arguments, and the arguments agree. -/
theorem algebraic : Cert.algebraic_KernelIdeal_ReferenceIdeal := by
  intro m ρ m' ρ' _ hagree
  refine ⟨fun c => Cert.KernelIdeal.Gen.W12 m ρ c (Proc.devRef .tc Cert.KernelIdeal.main_v95),
    Cert.KernelIdeal.KRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v156_eq, a0, a1, a2, a3, a4, a5, a6, a7, a8, a9, a10, a11, a12]
  exact (Cert.KernelIdeal.KStages.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
